-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x128 .f32) (main_arg3 : FVec F S128 .f32) (main_arg4 : FVec F S128x128 .f32) (main_arg5 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x256 : Shape := ⟨2, ![5000, 256]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 87
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x128, .f32⟩
  | .hbm, ⟨78, _⟩ => ⟨S850000x1, .f32⟩
  | .hbm, ⟨79, _⟩ => ⟨S850000x128, .f32⟩
  | .hbm, ⟨80, _⟩ => ⟨S850000x128, .f32⟩
  | .hbm, ⟨81, _⟩ => ⟨S_, .f32⟩
  | .hbm, ⟨82, _⟩ => ⟨S50000x128, .f32⟩
  | .hbm, ⟨83, _⟩ => ⟨S850000x1, .i32⟩
  | .hbm, ⟨84, _⟩ => ⟨S50000x128, .f32⟩
  | .hbm, ⟨85, _⟩ => ⟨S1x128, .f32⟩
  | .hbm, ⟨86, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x128, .f32⟩
  | .hbm, ⟨82, _⟩ => ⟨S850000x1, .f32⟩
  | .hbm, ⟨83, _⟩ => ⟨S850000x128, .f32⟩
  | .hbm, ⟨84, _⟩ => ⟨S850000x128, .f32⟩
  | .hbm, ⟨85, _⟩ => ⟨S_, .f32⟩
  | .hbm, ⟨86, _⟩ => ⟨S50000x128, .f32⟩
  | .hbm, ⟨87, _⟩ => ⟨S850000x1, .i32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The kernel program's run, with its result buffer named.

  The program is four grid regions among stretches of host operations. Every weakly fair execution from any memory
  with zero counters runs the segments in order: each host stretch rewrites the buffers its operations write, each
  region leaves its arrays at what its ten write-backs fold to, and every other buffer stays. So the run ends with
  every unscoped buffer of a core at the last boundary's contents — the result buffer among them, which is what this
  statement adds to the frame: the result buffer ends at the fold's contents `W9`, the arguments as launched.
-/
import proofs.«114793_j89352499626364_1_alg».proof.Proof.Gen.KernelIdeal.Frame

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the argument arrays end as launched: the segments' launch, the last thread state read
    against the final memory buffer by buffer. -/
theorem run : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Launched

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.Spec.lean ====
/-
  What both programs compute, as ONE function of the argument arrays: two rounds of graph convolution.

  The edge list `e` (two rows of node numbers) gets one self loop per node appended (`src`, `dst`); a node's degree
  counts the edges that end in it (`deg`), `dis` is degree^(-1/2) where the degree is positive, and an edge's weight is
  the product of `dis` at its two ends (`norm`). One round takes features `h`, gathers the source node's row for
  every edge, scales it by the edge's weight and adds the rows up per destination node (`aggr`). The network is
    out = aggr (relu (aggr (x · W1) + b1) · W2) + b2,
  the biases added to every row (`rowOf`). The two matrix products are the host's contraction of the left operand's
  columns with the right operand's rows; read at entry (p, j) on the extended reals each is the sum over k of
  l (p, k) * r (k, j) (`mm1_apply`, `mm2_apply`).
-/
import proofs.«114793_j89352499626364_1_alg».proof.ReferenceIdeal
import proofs.«114793_j89352499626364_1_alg».proof.Proof.Gen.ReferenceIdeal
import proofs.«114793_j89352499626364_1_alg».proof.Proof.LibPlainDot
import Idealize.ShloMosaic.PureOps.Ideal
import Idealize.ShloMosaic.Lib.ValueIdx
import Idealize.ShloMosaic.Lib.ValueLayout
import Idealize.ShloMosaic.Lib.Pipeline.Value

noncomputable section

open scoped BigOperators

namespace Cert.Spec

open Cert.ReferenceIdeal Cert.ReferenceIdeal.Gen Idealize.ShloMosaic Idealize.ShloMosaic.ValueIdx

/-- The edge list: two rows of node numbers. -/
abbrev Edges := IVec S2x800000 32
/-- One node number per edge, the self loops included. -/
abbrev Ends := IVec S850000 32
/-- One number per edge, the self loops included. -/
abbrev Weights := FVec Ideal S850000 .f32
/-- One number per node. -/
abbrev PerNode := FVec Ideal S50000 .f32
/-- A row of 128 features per node. -/
abbrev Feat := FVec Ideal S50000x128 .f32

/-- Every edge's source node: row 0 of the edge list, then the nodes themselves (the self loops). -/
def src (e : Edges) : Ends :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- Every edge's destination node: row 1 of the edge list, then the nodes themselves. -/
def dst (e : Edges) : Ends :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A negative node number counts from the end. -/
def wrap (i : Ends) : Ends :=
  select (cmpi .slt i (broadcastInDim S850000 ![] bcast_S_S850000 (constantI S_ 32 0#32))) (addi i (broadcastInDim S850000 ![] bcast_S_S850000 (constantI S_ 32 50000#32))) i

/-- The number of edges ending in each node. -/
def deg (e : Edges) : PerNode :=
  Host.scatterAdd scatter_S50000_S850000x1_S850000_n_0_0_1 (broadcastInDim S50000 ![] bcast_S_S50000 (constant S_ .f32 0x00000000#32)) (broadcastInDim S850000x1 ![0] bcast_S850000_S850000x1_0 (dst e)) (broadcastInDim S850000 ![] bcast_S_S850000 (constant S_ .f32 0x3F800000#32))

/-- Per-node factors from degrees `g`: g^(-1/2) where g is positive, zero elsewhere. -/
def disOf (g : PerNode) : PerNode :=
  select (cmpf (F := Ideal) .ogt g (broadcastInDim S50000 ![] bcast_S_S50000 (constant S_ .f32 0x00000000#32))) (Host.rsqrt (maximumf g (broadcastInDim S50000 ![] bcast_S_S50000 (constant S_ .f32 0x3F800000#32)))) (broadcastInDim S50000 ![] bcast_S_S50000 (id (constant S_ .f32 0x00000000#32)))

/-- degree^(-1/2) where the degree is positive, zero elsewhere. -/
def dis (e : Edges) : PerNode := disOf (deg e)

/-- Edge weights from per-node factors `d`: the factor at the edge's source times the factor at its destination. -/
def normOf (d : PerNode) (s t : Ends) : Weights :=
  mulf (Host.gather gather_S50000_S850000x1_S850000_n_0_n_n_0_1_1 d (broadcastInDim S850000x1 ![0] bcast_S850000_S850000x1_0 (wrap s))) (Host.gather gather_S50000_S850000x1_S850000_n_0_n_n_0_1_1 d (broadcastInDim S850000x1 ![0] bcast_S850000_S850000x1_0 (wrap t)))

/-- An edge's weight: `dis` at its source times `dis` at its destination. -/
def norm (e : Edges) : Weights := normOf (dis e) (src e) (dst e)

/-- One round of message passing over edges with sources `s`, destinations `d` and weights `w`: every edge carries its
    source's feature row times its weight, and a node's new row is the sum of what arrives. -/
def aggr (h : Feat) (s d : Ends) (w : Weights) : Feat :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 d) (mulf (Host.gather gather_S50000x128_S850000x1_S850000x128_1_0_n_n_0_1_1128 h (broadcastInDim S850000x1 ![0] bcast_S850000_S850000x1_0 (wrap s))) (broadcastInDim S850000x128 ![0, 1] bcast_S850000x1_S850000x128_0_1 (broadcastInDim S850000x1 ![0] bcast_S850000_S850000x1_0 w)))

/-- A single row repeated for every node. -/
def rows (r : FVec Ideal S1x128 .f32) : Feat :=
  broadcastInDim S50000x128 ![0, 1] bcast_S1x128_S50000x128_0_1 r

/-- A bias vector as a single row. -/
def asRow (b : FVec Ideal S128 .f32) : FVec Ideal S1x128 .f32 :=
  broadcastInDim S1x128 ![1] bcast_S128_S1x128_1 b

/-- The all-zero feature array. -/
def zeros : Feat := broadcastInDim S50000x128 ![] bcast_S_S50000x128 (constant S_ .f32 0x00000000#32)

/-- The first layer's matrix product. -/
def mm1 (x : FVec Ideal S50000x256 .f32) (w : FVec Ideal S256x128 .f32) : Feat :=
  Host.dotGeneral dot_S50000x256_S256x128_S50000x128_1_0_0_1_n_n none x w

/-- The second layer's matrix product. -/
def mm2 (x : Feat) (w : FVec Ideal S128x128 .f32) : Feat :=
  Host.dotGeneral dot_S50000x128_S128x128_S50000x128_1_0_0_1_n_n none x w

/-- A bias row added to every node's row, negatives cut to zero. -/
def biasRelu (a : Feat) (r : FVec Ideal S1x128 .f32) : Feat :=
  maximumf (addf a (rows r)) zeros

/-- A bias row added to every node's row. -/
def bias (a : Feat) (r : FVec Ideal S1x128 .f32) : Feat :=
  addf a (rows r)

/-- The hidden layer: relu (aggr (x · W1) + b1). -/
def hidden (x : FVec Ideal S50000x256 .f32) (e : Edges) (w1 : FVec Ideal S256x128 .f32)
    (b1 : FVec Ideal S128 .f32) : Feat :=
  biasRelu (aggr (mm1 x w1) (src e) (dst e) (norm e)) (asRow b1)

/-- The network's output: aggr (hidden · W2) + b2. -/
def out (x : FVec Ideal S50000x256 .f32) (e : Edges) (w1 : FVec Ideal S256x128 .f32)
    (b1 : FVec Ideal S128 .f32) (w2 : FVec Ideal S128x128 .f32)
    (b2 : FVec Ideal S128 .f32) : Feat :=
  bias (aggr (mm2 (hidden x e w1 b1) w2) (src e) (dst e) (norm e)) (asRow b2)

/-- The first product at entry (p, j): the sum over k of x (p, k) * w (k, j). -/
theorem mm1_apply (x : FVec Ideal S50000x256 .f32) (w : FVec Ideal S256x128 .f32)
    (p : Fin 50000) (j : Fin 128) :
    mm1 x w (ix2 p j) = ∑ k : Fin 256, (x : S50000x256.Idx → EReal) (ix2 p k) * (w : S256x128.Idx → EReal) (ix2 k j) :=
  Cert.Lib.PlainDot.dotGeneral_apply (M := 50000) (K := 256) (N := 128) (φ₁ := .f32) (φ₂ := .f32) none _ x w p j

/-- The second product at entry (p, j): the sum over k of x (p, k) * w (k, j). -/
theorem mm2_apply (x : Feat) (w : FVec Ideal S128x128 .f32) (p : Fin 50000) (j : Fin 128) :
    mm2 x w (ix2 p j) = ∑ k : Fin 128, (x : S50000x128.Idx → EReal) (ix2 p k) * (w : S128x128.Idx → EReal) (ix2 k j) :=
  Cert.Lib.PlainDot.dotGeneral_apply (M := 50000) (K := 128) (N := 128) (φ₁ := .f32) (φ₂ := .f32) none _ x w p j

/-- A repeated row read at node `r`, feature `s`, is the row at `s`. -/
theorem rows_apply (R : FVec Ideal S1x128 .f32) (r : Fin 50000) (s : Fin 128) :
    rows R (ix2 r s) = R (ix2 (0 : Fin 1) s) := by
  unfold rows
  refine broadcastInDim_apply _ _ R (ix2 r s) (ix2 (0 : Fin 1) s) fun a => ?_
  match a with
  | ⟨0, _⟩ => rfl
  | ⟨1, _⟩ => rfl

/-- The all-zero array read anywhere is the zero word's value. -/
theorem zeros_apply (r : Fin 50000) (s : Fin 128) : zeros (ix2 r s) = Ideal.ofBits .f32 0x00000000#32 := by
  unfold zeros
  exact broadcastInDim_apply _ _ (constant (F := Ideal) S_ .f32 0x00000000#32) (ix2 r s) ix0 fun a => a.elim0

/-- A bias vector as a row, read at feature `s`, is the vector at `s`. -/
theorem asRow_apply (b : FVec Ideal S128 .f32) (u : Fin 1) (s : Fin 128) : asRow b (ix2 u s) = b (ix1 s) := by
  unfold asRow
  refine broadcastInDim_apply _ _ b (ix2 u s) (ix1 s) fun a => ?_
  match a with
  | ⟨0, _⟩ => rfl

end Cert.Spec

end
-- ==== Proof.Region0.lean ====
/-
  Region 0: the first layer's matrix product computed block by block.

  The grid has ten points. Point t takes rows 5000·t … 5000·t + 4999 of the left operand and the whole right operand, and
  writes rows 5000·t … 5000·t + 4999 of the result: entry (p, j) of its block is the sum over k of left (5000·t + p, k)
  times right (k, j) — a rounding of the operands to a narrower float format on the way into the multiplier is the
  identity on the extended reals. The ten blocks tile the result, so the array the region leaves is the whole product
  of the arrays it found, whatever those are.
-/
import proofs.«114793_j89352499626364_1_alg».proof.Proof.Gen.KernelIdeal.Frame
import proofs.«114793_j89352499626364_1_alg».proof.Proof.Spec
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

-- the buffer contents the region finds: a parameter
variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the left operand's and the result's row block is the point's number, every
    other block index is zero. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's stored value at entry (p, q) of the block: the row of the left block times the column of the right. -/
theorem pay_apply (x0 : Vec Ideal S5000x256 .f32) (x1 : Vec Ideal S256x128 .f32) (p : Fin 5000) (q : Fin 128) :
    k0_pay1 x0 x1 (ix2 p q)
      = ∑ k : Fin 256, (x0 : S5000x256.Idx → EReal) (ix2 p k) * (x1 : S256x128.Idx → EReal) (ix2 k q) := by
  unfold k0_pay1
  exact Cert.Lib.PlainDot.matmul_zero_apply (M := 5000) (K := 256) (N := 128) none (truncf .bf16 x0 bitsLt_bf16_f32) (truncf .bf16 x1 bitsLt_bf16_f32) p q

/-- Entry `y` of the block computed from a block of rows `x0` of `X` starting at row 5000·n and from all of `W` is
    entry `i` of the whole product, when `i` is `y` moved down by 5000·n rows. -/
theorem block_entry (X : FVec Ideal S50000x256 .f32) (W : FVec Ideal S256x128 .f32) (x0 : Vec Ideal S5000x256 .f32) (x1 : Vec Ideal S256x128 .f32)
    (n : ℕ) (h0 : ∀ (x : S5000x256.Idx) (k : S50000x256.Idx), (k 0).val = n * 5000 + (x 0).val → (k 1).val = (x 1).val → x0 x = X k)
    (h1 : ∀ x, x1 x = W x) (y : S5000x128.Idx) (i : S50000x128.Idx)
    (hi0 : (i 0).val = n * 5000 + (y 0).val) (hi1 : (i 1).val = (y 1).val) :
    k0_pay1 x0 x1 y = Cert.Spec.mm1 X W i := by
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  have hs : s = q := Fin.ext hi1
  subst hs
  rw [pay_apply, Cert.Spec.mm1_apply]
  refine Finset.sum_congr rfl fun k _ => ?_
  rw [h0 (ix2 p k) (ix2 r k) hi0 rfl, h1]

/-- The left operand's block at point `t` is rows 5000·t … of the array the region finds. -/
theorem iblk_rows (c : Dev nD) (t : Fin cfg0.N) (x : S5000x256.Idx) (k : S50000x256.Idx)
    (hk0 : (k 0).val = t.val * 5000 + (x 0).val) (hk1 : (k 1).val = (x 1).val) :
    (iblk0 V c 0 t : Vec Ideal S5000x256 .f32) x = (V c main_arg0 : S50000x256.Idx → EReal) k := by
  obtain ⟨e0, e1, -, -, -, -⟩ := idx t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * (x 0).val = (k 0).val; omega
  | ⟨1, _⟩ => show win0_0.index t (1 : Fin 2) * 256 + 1 * (x 1).val = (k 1).val; omega

/-- The right operand's block at every point is the whole array. -/
theorem iblk_whole (c : Dev nD) (t : Fin cfg0.N) (x : S256x128.Idx) :
    (iblk0 V c 1 t : Vec Ideal S256x128 .f32) x = (V c main_arg2 : S256x128.Idx → EReal) x := by
  obtain ⟨-, -, e2, e3, -, -⟩ := idx t
  unfold iblk0
  rw [View.read_apply]
  show V c main_arg2 _ = V c main_arg2 _
  refine congrArg (V c main_arg2) (funext fun a => Fin.ext ?_)
  match a with
  | ⟨0, _⟩ => show win0_1.index t (0 : Fin 2) * 256 + 1 * (x 0).val = (x 0).val; omega
  | ⟨1, _⟩ => show win0_1.index t (1 : Fin 2) * 128 + 1 * (x 1).val = (x 1).val; omega

/-- What point `t` writes back is block `t` of the whole product of the arrays the region finds. -/
theorem flushed (c : Dev nD) (t : Fin cfg0.N) :
    (dat0 V c).flushed 2 t
      = ((cfg0.win 2).blk t).view.read (Elt Ideal) (Cert.Spec.mm1 (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨-, -, -, -, e4, e5⟩ := idx t
  funext j
  show k0_pay1 (iblk0 V c 0 t) (iblk0 V c 1 t) j
    = Cert.Spec.mm1 (V c main_arg0) (V c main_arg2) (((cfg0.win 2).blk t).view.emb j)
  refine block_entry (V c main_arg0) (V c main_arg2) (iblk0 V c 0 t) (iblk0 V c 1 t) t.val
    (fun x k hk0 hk1 => iblk_rows V c t x k hk0 hk1) (fun x => iblk_whole V c t x) j (((cfg0.win 2).blk t).view.emb j) ?_ ?_
  · show win0_2.index t (0 : Fin 2) * 5000 + 1 * (j 0).val = t.val * 5000 + (j 0).val
    omega
  · show win0_2.index t (1 : Fin 2) * 128 + 1 * (j 1).val = (j 1).val
    omega

/-- An index of the result is in point `t`'s block iff each coordinate is in the block's range on its axis. -/
theorem mem_blk (t : Fin cfg0.N) (i : S50000x128.Idx) :
    i ∈ ((cfg0.win 2).blk t).view.set
      ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Row r of the result is written by point r / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, e4, e5⟩ := idx ⟨(i 0).val / 5000, ht⟩
  have q0 : win0_2.index ⟨(i 0).val / 5000, ht⟩ (0 : Fin 2) = (i 0).val / 5000 := e4
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    omega

/-- The array the region leaves is the whole product of the arrays it found. -/
theorem final (c : Dev nD) :
    (dat0 V c).arrAt 2 cfg0.N = Cert.Spec.mm1 (V c main_arg0) (V c main_arg2) :=
  (dat0 V c).arrAt_eq_of_cover 2 (Cert.Spec.mm1 (V c main_arg0) (V c main_arg2)) (fun t _ => flushed V c t) cover

end Cert.KernelIdeal.Region0

end
-- ==== Proof.Region1.lean ====
/-
  Region 1: the first layer's bias added to every node's row, negatives cut to zero.

  The grid has ten points. Point t takes rows 5000·t … 5000·t + 4999 of the feature array and the one bias row, and writes
  the same rows of the result: entry (p, j) of its block is the feature at (5000·t + p, j) plus the bias at j, or zero
  if that is negative. The ten blocks tile the result, so the array the region leaves is that function of the
  arrays it found, whatever those are.
-/
import proofs.«114793_j89352499626364_1_alg».proof.Proof.Gen.KernelIdeal.Frame
import proofs.«114793_j89352499626364_1_alg».proof.Proof.Spec
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

-- the buffer contents the region finds: a parameter
variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the feature array's and the result's row block is the point's number, every
    other block index is zero. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry `y` of the block computed from a block of rows `x0` of `A` starting at row 5000·n and from the row `R` is
    entry `i` of the whole-array function, when `i` is `y` moved down by 5000·n rows. -/
theorem block_entry (A : FVec Ideal S50000x128 .f32) (R : FVec Ideal S1x128 .f32) (x0 : Vec Ideal S5000x128 .f32) (x1 : Vec Ideal S1x128 .f32)
    (n : ℕ) (h0 : ∀ (x : S5000x128.Idx) (k : S50000x128.Idx), (k 0).val = n * 5000 + (x 0).val → (k 1).val = (x 1).val → x0 x = A k)
    (h1 : ∀ x, x1 x = R x) (y : S5000x128.Idx) (i : S50000x128.Idx)
    (hi0 : (i 0).val = n * 5000 + (y 0).val) (hi1 : (i 1).val = (y 1).val) :
    k1_pay1 x0 x1 y = Cert.Spec.biasRelu A R i := by
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  have hs : s = q := Fin.ext hi1
  subst hs
  unfold k1_pay1 Cert.Spec.biasRelu
  simp only [shapeCast_self]
  show max (x0 (ix2 p s) + broadcastTo S5000x128 x1 broadcasts_S1x128_S5000x128 (ix2 p s)) (Ideal.ofBits .f32 0x00000000#32)
    = max (A (ix2 r s) + Cert.Spec.rows R (ix2 r s)) (Cert.Spec.zeros (ix2 r s))
  rw [broadcastTo_1b_ab_apply, Cert.Spec.rows_apply, Cert.Spec.zeros_apply, h0 (ix2 p s) (ix2 r s) hi0 rfl, h1]

/-- The feature array's block at point `t` is rows 5000·t … of the array the region finds. -/
theorem iblk_rows (c : Dev nD) (t : Fin cfg1.N) (x : S5000x128.Idx) (k : S50000x128.Idx)
    (hk0 : (k 0).val = t.val * 5000 + (x 0).val) (hk1 : (k 1).val = (x 1).val) :
    (iblk1 V c 0 t : Vec Ideal S5000x128 .f32) x = (V c main_v45 : S50000x128.Idx → EReal) k := by
  obtain ⟨e0, e1, -, -, -, -⟩ := idx t
  unfold iblk1
  rw [View.read_apply]
  show V c main_v45 _ = V c main_v45 _
  refine congrArg (V c main_v45) (funext fun a => Fin.ext ?_)
  match a with
  | ⟨0, _⟩ => show win1_0.index t (0 : Fin 2) * 5000 + 1 * (x 0).val = (k 0).val; omega
  | ⟨1, _⟩ => show win1_0.index t (1 : Fin 2) * 128 + 1 * (x 1).val = (k 1).val; omega

/-- The bias row's block at every point is the whole row. -/
theorem iblk_whole (c : Dev nD) (t : Fin cfg1.N) (x : S1x128.Idx) :
    (iblk1 V c 1 t : Vec Ideal S1x128 .f32) x = (V c main_v46 : S1x128.Idx → EReal) x := by
  obtain ⟨-, -, e2, e3, -, -⟩ := idx t
  unfold iblk1
  rw [View.read_apply]
  show V c main_v46 _ = V c main_v46 _
  refine congrArg (V c main_v46) (funext fun a => Fin.ext ?_)
  match a with
  | ⟨0, _⟩ => show win1_1.index t (0 : Fin 2) * 1 + 1 * (x 0).val = (x 0).val; omega
  | ⟨1, _⟩ => show win1_1.index t (1 : Fin 2) * 128 + 1 * (x 1).val = (x 1).val; omega

/-- What point `t` writes back is block `t` of the whole-array function of the arrays the region finds. -/
theorem flushed (c : Dev nD) (t : Fin cfg1.N) :
    (dat1 V c).flushed 2 t
      = ((cfg1.win 2).blk t).view.read (Elt Ideal) (Cert.Spec.biasRelu (V c main_v45) (V c main_v46)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨-, -, -, -, e4, e5⟩ := idx t
  funext j
  show k1_pay1 (iblk1 V c 0 t) (iblk1 V c 1 t) j
    = Cert.Spec.biasRelu (V c main_v45) (V c main_v46) (((cfg1.win 2).blk t).view.emb j)
  refine block_entry (V c main_v45) (V c main_v46) (iblk1 V c 0 t) (iblk1 V c 1 t) t.val
    (fun x k hk0 hk1 => iblk_rows V c t x k hk0 hk1) (fun x => iblk_whole V c t x) j (((cfg1.win 2).blk t).view.emb j) ?_ ?_
  · show win1_2.index t (0 : Fin 2) * 5000 + 1 * (j 0).val = t.val * 5000 + (j 0).val
    omega
  · show win1_2.index t (1 : Fin 2) * 128 + 1 * (j 1).val = (j 1).val
    omega

/-- An index of the result is in point `t`'s block iff each coordinate is in the block's range on its axis. -/
theorem mem_blk (t : Fin cfg1.N) (i : S50000x128.Idx) :
    i ∈ ((cfg1.win 2).blk t).view.set
      ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- Row r of the result is written by point r / 5000. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, e4, e5⟩ := idx ⟨(i 0).val / 5000, ht⟩
  have q0 : win1_2.index ⟨(i 0).val / 5000, ht⟩ (0 : Fin 2) = (i 0).val / 5000 := e4
  refine ⟨⟨(i 0).val / 5000, ht⟩, flush1_2 _, ?_⟩
  rw [mem_blk]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    omega

/-- The array the region leaves is the whole-array function of the arrays it found. -/
theorem final (c : Dev nD) :
    (dat1 V c).arrAt 2 cfg1.N = Cert.Spec.biasRelu (V c main_v45) (V c main_v46) :=
  (dat1 V c).arrAt_eq_of_cover 2 (Cert.Spec.biasRelu (V c main_v45) (V c main_v46)) (fun t _ => flushed V c t) cover

end Cert.KernelIdeal.Region1

end
-- ==== Proof.Region2.lean ====
/-
  Region 2: the second layer's matrix product computed block by block.

  The grid has ten points. Point t takes rows 5000·t … 5000·t + 4999 of the left operand and the whole right operand, and
  writes rows 5000·t … 5000·t + 4999 of the result: entry (p, j) of its block is the sum over k of left (5000·t + p, k)
  times right (k, j) — a rounding of the operands to a narrower float format on the way into the multiplier is the
  identity on the extended reals. The ten blocks tile the result, so the array the region leaves is the whole product
  of the arrays it found, whatever those are.
-/
import proofs.«114793_j89352499626364_1_alg».proof.Proof.Gen.KernelIdeal.Frame
import proofs.«114793_j89352499626364_1_alg».proof.Proof.Spec
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

-- the buffer contents the region finds: a parameter
variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the left operand's and the result's row block is the point's number, every
    other block index is zero. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's stored value at entry (p, q) of the block: the row of the left block times the column of the right. -/
theorem pay_apply (x0 : Vec Ideal S5000x128 .f32) (x1 : Vec Ideal S128x128 .f32) (p : Fin 5000) (q : Fin 128) :
    k2_pay1 x0 x1 (ix2 p q)
      = ∑ k : Fin 128, (x0 : S5000x128.Idx → EReal) (ix2 p k) * (x1 : S128x128.Idx → EReal) (ix2 k q) := by
  unfold k2_pay1
  simp only [shapeCast_self]
  exact Cert.Lib.PlainDot.matmul_zero_apply (M := 5000) (K := 128) (N := 128) none (truncf .bf16 x0 bitsLt_bf16_f32) (truncf .bf16 x1 bitsLt_bf16_f32) p q

/-- Entry `y` of the block computed from a block of rows `x0` of `X` starting at row 5000·n and from all of `W` is
    entry `i` of the whole product, when `i` is `y` moved down by 5000·n rows. -/
theorem block_entry (X : FVec Ideal S50000x128 .f32) (W : FVec Ideal S128x128 .f32) (x0 : Vec Ideal S5000x128 .f32) (x1 : Vec Ideal S128x128 .f32)
    (n : ℕ) (h0 : ∀ (x : S5000x128.Idx) (k : S50000x128.Idx), (k 0).val = n * 5000 + (x 0).val → (k 1).val = (x 1).val → x0 x = X k)
    (h1 : ∀ x, x1 x = W x) (y : S5000x128.Idx) (i : S50000x128.Idx)
    (hi0 : (i 0).val = n * 5000 + (y 0).val) (hi1 : (i 1).val = (y 1).val) :
    k2_pay1 x0 x1 y = Cert.Spec.mm2 X W i := by
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  have hs : s = q := Fin.ext hi1
  subst hs
  rw [pay_apply, Cert.Spec.mm2_apply]
  refine Finset.sum_congr rfl fun k _ => ?_
  rw [h0 (ix2 p k) (ix2 r k) hi0 rfl, h1]

/-- The left operand's block at point `t` is rows 5000·t … of the array the region finds. -/
theorem iblk_rows (c : Dev nD) (t : Fin cfg2.N) (x : S5000x128.Idx) (k : S50000x128.Idx)
    (hk0 : (k 0).val = t.val * 5000 + (x 0).val) (hk1 : (k 1).val = (x 1).val) :
    (iblk2 V c 0 t : Vec Ideal S5000x128 .f32) x = (V c main_v47 : S50000x128.Idx → EReal) k := by
  obtain ⟨e0, e1, -, -, -, -⟩ := idx t
  unfold iblk2
  rw [View.read_apply]
  show V c main_v47 _ = V c main_v47 _
  refine congrArg (V c main_v47) (funext fun a => Fin.ext ?_)
  match a with
  | ⟨0, _⟩ => show win2_0.index t (0 : Fin 2) * 5000 + 1 * (x 0).val = (k 0).val; omega
  | ⟨1, _⟩ => show win2_0.index t (1 : Fin 2) * 128 + 1 * (x 1).val = (k 1).val; omega

/-- The right operand's block at every point is the whole array. -/
theorem iblk_whole (c : Dev nD) (t : Fin cfg2.N) (x : S128x128.Idx) :
    (iblk2 V c 1 t : Vec Ideal S128x128 .f32) x = (V c main_arg4 : S128x128.Idx → EReal) x := by
  obtain ⟨-, -, e2, e3, -, -⟩ := idx t
  unfold iblk2
  rw [View.read_apply]
  show V c main_arg4 _ = V c main_arg4 _
  refine congrArg (V c main_arg4) (funext fun a => Fin.ext ?_)
  match a with
  | ⟨0, _⟩ => show win2_1.index t (0 : Fin 2) * 128 + 1 * (x 0).val = (x 0).val; omega
  | ⟨1, _⟩ => show win2_1.index t (1 : Fin 2) * 128 + 1 * (x 1).val = (x 1).val; omega

/-- What point `t` writes back is block `t` of the whole product of the arrays the region finds. -/
theorem flushed (c : Dev nD) (t : Fin cfg2.N) :
    (dat2 V c).flushed 2 t
      = ((cfg2.win 2).blk t).view.read (Elt Ideal) (Cert.Spec.mm2 (V c main_v47) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨-, -, -, -, e4, e5⟩ := idx t
  funext j
  show k2_pay1 (iblk2 V c 0 t) (iblk2 V c 1 t) j
    = Cert.Spec.mm2 (V c main_v47) (V c main_arg4) (((cfg2.win 2).blk t).view.emb j)
  refine block_entry (V c main_v47) (V c main_arg4) (iblk2 V c 0 t) (iblk2 V c 1 t) t.val
    (fun x k hk0 hk1 => iblk_rows V c t x k hk0 hk1) (fun x => iblk_whole V c t x) j (((cfg2.win 2).blk t).view.emb j) ?_ ?_
  · show win2_2.index t (0 : Fin 2) * 5000 + 1 * (j 0).val = t.val * 5000 + (j 0).val
    omega
  · show win2_2.index t (1 : Fin 2) * 128 + 1 * (j 1).val = (j 1).val
    omega

/-- An index of the result is in point `t`'s block iff each coordinate is in the block's range on its axis. -/
theorem mem_blk (t : Fin cfg2.N) (i : S50000x128.Idx) :
    i ∈ ((cfg2.win 2).blk t).view.set
      ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- Row r of the result is written by point r / 5000. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  have ht : (i 0).val / 5000 < cfg2.N := by rw [hN]; omega
  obtain ⟨-, -, -, -, e4, e5⟩ := idx ⟨(i 0).val / 5000, ht⟩
  have q0 : win2_2.index ⟨(i 0).val / 5000, ht⟩ (0 : Fin 2) = (i 0).val / 5000 := e4
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    omega
  | ⟨1, _⟩ =>
    show win2_2.index ⟨(i 0).val / 5000, ht⟩ (1 : Fin 2) * 128 ≤ (i 1).val
      ∧ (i 1).val < win2_2.index ⟨(i 0).val / 5000, ht⟩ (1 : Fin 2) * 128 + 128
    omega

/-- The array the region leaves is the whole product of the arrays it found. -/
theorem final (c : Dev nD) :
    (dat2 V c).arrAt 2 cfg2.N = Cert.Spec.mm2 (V c main_v47) (V c main_arg4) :=
  (dat2 V c).arrAt_eq_of_cover 2 (Cert.Spec.mm2 (V c main_v47) (V c main_arg4)) (fun t _ => flushed V c t) cover

end Cert.KernelIdeal.Region2

end
-- ==== Proof.Region3.lean ====
/-
  Region 3: the second layer's bias added to every node's row.

  The grid has ten points. Point t takes rows 5000·t … 5000·t + 4999 of the feature array and the one bias row, and writes
  the same rows of the result: entry (p, j) of its block is the feature at (5000·t + p, j) plus the bias at j. The ten blocks tile the result, so the array the region leaves is that function of the
  arrays it found, whatever those are.
-/
import proofs.«114793_j89352499626364_1_alg».proof.Proof.Gen.KernelIdeal.Frame
import proofs.«114793_j89352499626364_1_alg».proof.Proof.Spec
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen

-- the buffer contents the region finds: a parameter
variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the feature array's and the result's row block is the point's number, every
    other block index is zero. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry `y` of the block computed from a block of rows `x0` of `A` starting at row 5000·n and from the row `R` is
    entry `i` of the whole-array function, when `i` is `y` moved down by 5000·n rows. -/
theorem block_entry (A : FVec Ideal S50000x128 .f32) (R : FVec Ideal S1x128 .f32) (x0 : Vec Ideal S5000x128 .f32) (x1 : Vec Ideal S1x128 .f32)
    (n : ℕ) (h0 : ∀ (x : S5000x128.Idx) (k : S50000x128.Idx), (k 0).val = n * 5000 + (x 0).val → (k 1).val = (x 1).val → x0 x = A k)
    (h1 : ∀ x, x1 x = R x) (y : S5000x128.Idx) (i : S50000x128.Idx)
    (hi0 : (i 0).val = n * 5000 + (y 0).val) (hi1 : (i 1).val = (y 1).val) :
    k3_pay1 x0 x1 y = Cert.Spec.bias A R i := by
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  have hs : s = q := Fin.ext hi1
  subst hs
  unfold k3_pay1 Cert.Spec.bias
  simp only [shapeCast_self]
  show x0 (ix2 p s) + broadcastTo S5000x128 x1 broadcasts_S1x128_S5000x128 (ix2 p s)
    = A (ix2 r s) + Cert.Spec.rows R (ix2 r s)
  rw [broadcastTo_1b_ab_apply, Cert.Spec.rows_apply, h0 (ix2 p s) (ix2 r s) hi0 rfl, h1]

/-- The feature array's block at point `t` is rows 5000·t … of the array the region finds. -/
theorem iblk_rows (c : Dev nD) (t : Fin cfg3.N) (x : S5000x128.Idx) (k : S50000x128.Idx)
    (hk0 : (k 0).val = t.val * 5000 + (x 0).val) (hk1 : (k 1).val = (x 1).val) :
    (iblk3 V c 0 t : Vec Ideal S5000x128 .f32) x = (V c main_v61 : S50000x128.Idx → EReal) k := by
  obtain ⟨e0, e1, -, -, -, -⟩ := idx t
  unfold iblk3
  rw [View.read_apply]
  show V c main_v61 _ = V c main_v61 _
  refine congrArg (V c main_v61) (funext fun a => Fin.ext ?_)
  match a with
  | ⟨0, _⟩ => show win3_0.index t (0 : Fin 2) * 5000 + 1 * (x 0).val = (k 0).val; omega
  | ⟨1, _⟩ => show win3_0.index t (1 : Fin 2) * 128 + 1 * (x 1).val = (k 1).val; omega

/-- The bias row's block at every point is the whole row. -/
theorem iblk_whole (c : Dev nD) (t : Fin cfg3.N) (x : S1x128.Idx) :
    (iblk3 V c 1 t : Vec Ideal S1x128 .f32) x = (V c main_v62 : S1x128.Idx → EReal) x := by
  obtain ⟨-, -, e2, e3, -, -⟩ := idx t
  unfold iblk3
  rw [View.read_apply]
  show V c main_v62 _ = V c main_v62 _
  refine congrArg (V c main_v62) (funext fun a => Fin.ext ?_)
  match a with
  | ⟨0, _⟩ => show win3_1.index t (0 : Fin 2) * 1 + 1 * (x 0).val = (x 0).val; omega
  | ⟨1, _⟩ => show win3_1.index t (1 : Fin 2) * 128 + 1 * (x 1).val = (x 1).val; omega

/-- What point `t` writes back is block `t` of the whole-array function of the arrays the region finds. -/
theorem flushed (c : Dev nD) (t : Fin cfg3.N) :
    (dat3 V c).flushed 2 t
      = ((cfg3.win 2).blk t).view.read (Elt Ideal) (Cert.Spec.bias (V c main_v61) (V c main_v62)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨-, -, -, -, e4, e5⟩ := idx t
  funext j
  show k3_pay1 (iblk3 V c 0 t) (iblk3 V c 1 t) j
    = Cert.Spec.bias (V c main_v61) (V c main_v62) (((cfg3.win 2).blk t).view.emb j)
  refine block_entry (V c main_v61) (V c main_v62) (iblk3 V c 0 t) (iblk3 V c 1 t) t.val
    (fun x k hk0 hk1 => iblk_rows V c t x k hk0 hk1) (fun x => iblk_whole V c t x) j (((cfg3.win 2).blk t).view.emb j) ?_ ?_
  · show win3_2.index t (0 : Fin 2) * 5000 + 1 * (j 0).val = t.val * 5000 + (j 0).val
    omega
  · show win3_2.index t (1 : Fin 2) * 128 + 1 * (j 1).val = (j 1).val
    omega

/-- An index of the result is in point `t`'s block iff each coordinate is in the block's range on its axis. -/
theorem mem_blk (t : Fin cfg3.N) (i : S50000x128.Idx) :
    i ∈ ((cfg3.win 2).blk t).view.set
      ↔ ∀ a : Fin 2, win3_2.index t a * S5000x128.size a ≤ (i a).val ∧ (i a).val < win3_2.index t a * S5000x128.size a + S5000x128.size a := by
  show i ∈ ((View.whole main_v63).slice (win3_2.rect t)).set ↔ _
  rw [View.set_slice_whole, Rect.mem_set_unit]
  exact Iff.rfl

/-- Row r of the result is written by point r / 5000. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  have ht : (i 0).val / 5000 < cfg3.N := by rw [hN]; omega
  obtain ⟨-, -, -, -, e4, e5⟩ := idx ⟨(i 0).val / 5000, ht⟩
  have q0 : win3_2.index ⟨(i 0).val / 5000, ht⟩ (0 : Fin 2) = (i 0).val / 5000 := e4
  refine ⟨⟨(i 0).val / 5000, ht⟩, flush3_2 _, ?_⟩
  rw [mem_blk]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    omega
  | ⟨1, _⟩ =>
    show win3_2.index ⟨(i 0).val / 5000, ht⟩ (1 : Fin 2) * 128 ≤ (i 1).val
      ∧ (i 1).val < win3_2.index ⟨(i 0).val / 5000, ht⟩ (1 : Fin 2) * 128 + 128
    omega

/-- The array the region leaves is the whole-array function of the arrays it found. -/
theorem final (c : Dev nD) :
    (dat3 V c).arrAt 2 cfg3.N = Cert.Spec.bias (V c main_v61) (V c main_v62) :=
  (dat3 V c).arrAt_eq_of_cover 2 (Cert.Spec.bias (V c main_v61) (V c main_v62)) (fun t _ => flushed V c t) cover

end Cert.KernelIdeal.Region3

end
-- ==== Proof.KernelValue.lean ====
/-
  The kernel program's result, read as the network of Proof/Spec.lean.

  The buffer contents at the program's nine boundaries are a fold from the launch memory: a host stretch applies its
  operations, a region leaves its result array at the whole-array function of the arrays it found (Region0 … Region3)
  and keeps every other buffer. Walking the fold back from the result buffer:
    the result is the last region's bias row added to what the last host stretch aggregated,
    that stretch gathered, scaled and summed the second product, which region 2 computed from region 1's relu output,
    region 1 added the first bias row to what the middle stretch aggregated from region 0's first product,
  and the edge ends and edge weights all these stretches read were computed from the edge list before region 0 and
  are carried unchanged through every later segment. The bias rows are the bias vectors given a leading unit axis,
  which reads the same as a broadcast along that axis.
-/
import proofs.«114793_j89352499626364_1_alg».proof.Proof.Gen.KernelIdeal.Frame
import proofs.«114793_j89352499626364_1_alg».proof.Proof.Spec
import proofs.«114793_j89352499626364_1_alg».proof.Proof.Region0
import proofs.«114793_j89352499626364_1_alg».proof.Proof.Region1
import proofs.«114793_j89352499626364_1_alg».proof.Proof.Region2
import proofs.«114793_j89352499626364_1_alg».proof.Proof.Region3
import Idealize.ShloMosaic.Lib.StableHlo.Run
import Idealize.ShloMosaic.Lib.ValueLayout

noncomputable section

namespace Cert.KernelIdeal.Fold

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## Before region 0: the arguments as launched, the edge ends and weights computed -/

theorem W3_arg (c : Dev nD) :
    W3 m ρ c (Proc.devRef .tc main_arg0) = (m ((c : Thread nD τ).loc main_arg0)) ∧ W3 m ρ c (Proc.devRef .tc main_arg2) = (m ((c : Thread nD τ).loc main_arg2))
    ∧ W3 m ρ c (Proc.devRef .tc main_arg3) = (m ((c : Thread nD τ).loc main_arg3)) ∧ W3 m ρ c (Proc.devRef .tc main_arg4) = (m ((c : Thread nD τ).loc main_arg4))
    ∧ W3 m ρ c (Proc.devRef .tc main_arg5) = (m ((c : Thread nD τ).loc main_arg5)) := by
  refine ⟨?_, ?_, ?_, ?_, ?_⟩ <;>
  · dsimp only [W3, W2, W1, hostOps0, hostOps0_1, hostOps0_2]
    after_results_simp <;> rfl

/-- The sources of all edges, self loops appended. -/
theorem W3_src (c : Dev nD) : W3 m ρ c (Proc.devRef .tc main_v5) = Cert.Spec.src (m ((c : Thread nD τ).loc main_arg1)) := by
  dsimp only [W3, W2, W1, hostOps0, hostOps0_1, hostOps0_2]
  after_results_simp <;> rfl

/-- The destinations of all edges, self loops appended. -/
theorem W3_dst (c : Dev nD) : W3 m ρ c (Proc.devRef .tc main_v6) = Cert.Spec.dst (m ((c : Thread nD τ).loc main_arg1)) := by
  dsimp only [W3, W2, W1, hostOps0, hostOps0_1, hostOps0_2]
  after_results_simp <;> rfl

/-- After the first stretch: the edge ends, where the degree is positive, its inverse square root, the zero to fill with. -/
theorem W1_stage (c : Dev nD) :
    W1 m ρ c (Proc.devRef .tc main_v5) = Cert.Spec.src (m ((c : Thread nD τ).loc main_arg1)) ∧ W1 m ρ c (Proc.devRef .tc main_v6) = Cert.Spec.dst (m ((c : Thread nD τ).loc main_arg1))
    ∧ W1 m ρ c (Proc.devRef .tc main_v12)
        = cmpf (F := Ideal) .ogt (Cert.Spec.deg (m ((c : Thread nD τ).loc main_arg1))) (broadcastInDim S50000 ![] bcast_S_S50000 (constant S_ .f32 0x00000000#32))
    ∧ W1 m ρ c (Proc.devRef .tc main_v15)
        = Host.rsqrt (maximumf (Cert.Spec.deg (m ((c : Thread nD τ).loc main_arg1))) (broadcastInDim S50000 ![] bcast_S_S50000 (constant S_ .f32 0x3F800000#32)))
    ∧ W1 m ρ c (Proc.devRef .tc main_cst_3) = constant (F := Ideal) S_ .f32 0x00000000#32 := by
  refine ⟨?_, ?_, ?_, ?_, ?_⟩ <;>
  · dsimp only [W1, hostOps0]
    after_results_simp <;> rfl

/-- The second stretch, from any contents: the per-node factor is chosen where the degree is positive, the fill
    elsewhere; the edge ends are kept. -/
theorem where_stage (X : Valuation τ sig (Elt Ideal)) :
    StableHlo.after hostOps0_1 X (Proc.devRef .tc main_v16)
        = select (X (Proc.devRef .tc main_v12)) (X (Proc.devRef .tc main_v15)) (broadcastInDim S50000 ![] bcast_S_S50000 (id (X (Proc.devRef .tc main_cst_3))))
    ∧ StableHlo.after hostOps0_1 X (Proc.devRef .tc main_v5) = X (Proc.devRef .tc main_v5)
    ∧ StableHlo.after hostOps0_1 X (Proc.devRef .tc main_v6) = X (Proc.devRef .tc main_v6) := by
  refine ⟨?_, ?_, ?_⟩ <;>
  · dsimp only [hostOps0_1]
    after_results_simp <;> rfl

/-- The third stretch, from any contents: the edge weights from the per-node factors and the edge ends. -/
theorem weights_stage (X : Valuation τ sig (Elt Ideal)) :
    StableHlo.after hostOps0_2 X (Proc.devRef .tc main_v31)
      = Cert.Spec.normOf (X (Proc.devRef .tc main_v16)) (X (Proc.devRef .tc main_v5)) (X (Proc.devRef .tc main_v6)) := by
  dsimp only [hostOps0_2]
  after_results_simp <;> rfl

/-- The edge weights. -/
theorem W3_norm (c : Dev nD) : W3 m ρ c (Proc.devRef .tc main_v31) = Cert.Spec.norm (m ((c : Thread nD τ).loc main_arg1)) := by
  obtain ⟨s5, s6, s12, s15, s3⟩ := W1_stage m ρ c
  obtain ⟨w16, w5, w6⟩ := where_stage (W1 m ρ c)
  have h : W3 m ρ c (Proc.devRef .tc main_v31)
      = Cert.Spec.normOf (W2 m ρ c (Proc.devRef .tc main_v16)) (W2 m ρ c (Proc.devRef .tc main_v5)) (W2 m ρ c (Proc.devRef .tc main_v6)) := weights_stage (W2 m ρ c)
  have h16 : W2 m ρ c (Proc.devRef .tc main_v16) = _ := w16
  have h5 : W2 m ρ c (Proc.devRef .tc main_v5) = _ := w5
  have h6 : W2 m ρ c (Proc.devRef .tc main_v6) = _ := w6
  rw [h, h16, h5, h6, s5, s6, s12, s15, s3]
  rfl

/-! ## Region 0, the middle stretch, region 1 -/

/-- Region 0 leaves the first product of the arguments. -/
theorem W4_prod (c : Dev nD) :
    W4 m ρ c (Proc.devRef .tc main_v32) = Cert.Spec.mm1 (m ((c : Thread nD τ).loc main_arg0)) (m ((c : Thread nD τ).loc main_arg2)) := by
  have h : (dat0 (V3 m ρ) c).arrAt 2 cfg0.N
      = Cert.Spec.mm1 (W3 m ρ c (Proc.devRef .tc main_arg0)) (W3 m ρ c (Proc.devRef .tc main_arg2)) := Cert.KernelIdeal.Region0.final (V3 m ρ) c
  rw [(W3_arg m ρ c).1, (W3_arg m ρ c).2.1] at h
  exact (W4_arr m ρ c 2).trans h

/-- The middle stretch aggregates the first product along the edges, and lays the first bias out as a row. -/
theorem W5_agg (c : Dev nD) :
    W5 m ρ c (Proc.devRef .tc main_v45)
      = Cert.Spec.aggr (W4 m ρ c (Proc.devRef .tc main_v32)) (W4 m ρ c (Proc.devRef .tc main_v5)) (W4 m ρ c (Proc.devRef .tc main_v6)) (W4 m ρ c (Proc.devRef .tc main_v31)) := by
  dsimp only [W5, hostOps1]
  after_results_simp <;> rfl

theorem W5_row (c : Dev nD) :
    W5 m ρ c (Proc.devRef .tc main_v46) = shapeCast S1x128 (W4 m ρ c (Proc.devRef .tc main_arg3)) shapeCasts_S128_S1x128 := by
  dsimp only [W5, hostOps1]
  after_results_simp <;> rfl

/-- What the middle stretch does not write it keeps. -/
theorem W5_keep (c : Dev nD) :
    W5 m ρ c (Proc.devRef .tc main_v5) = W4 m ρ c (Proc.devRef .tc main_v5) ∧ W5 m ρ c (Proc.devRef .tc main_v6) = W4 m ρ c (Proc.devRef .tc main_v6)
    ∧ W5 m ρ c (Proc.devRef .tc main_v31) = W4 m ρ c (Proc.devRef .tc main_v31) ∧ W5 m ρ c (Proc.devRef .tc main_arg4) = W4 m ρ c (Proc.devRef .tc main_arg4)
    ∧ W5 m ρ c (Proc.devRef .tc main_arg5) = W4 m ρ c (Proc.devRef .tc main_arg5) := by
  refine ⟨?_, ?_, ?_, ?_, ?_⟩ <;>
  · dsimp only [W5, hostOps1]
    after_results_simp <;> rfl

/-- Region 1 leaves the hidden layer: the bias row added, negatives cut to zero. -/
theorem W6_hidden (c : Dev nD) :
    W6 m ρ c (Proc.devRef .tc main_v47) = Cert.Spec.biasRelu (W5 m ρ c (Proc.devRef .tc main_v45)) (W5 m ρ c (Proc.devRef .tc main_v46)) :=
  (W6_arr m ρ c 2).trans (Cert.KernelIdeal.Region1.final (V5 m ρ) c)

/-! ## Region 2, the last stretch, region 3 -/

/-- Region 2 leaves the second product. -/
theorem W7_prod (c : Dev nD) :
    W7 m ρ c (Proc.devRef .tc main_v48) = Cert.Spec.mm2 (W6 m ρ c (Proc.devRef .tc main_v47)) (W6 m ρ c (Proc.devRef .tc main_arg4)) :=
  (W7_arr m ρ c 2).trans (Cert.KernelIdeal.Region2.final (V6 m ρ) c)

/-- The last stretch aggregates the second product along the edges, and lays the second bias out as a row. -/
theorem W8_agg (c : Dev nD) :
    W8 m ρ c (Proc.devRef .tc main_v61)
      = Cert.Spec.aggr (W7 m ρ c (Proc.devRef .tc main_v48)) (W7 m ρ c (Proc.devRef .tc main_v5)) (W7 m ρ c (Proc.devRef .tc main_v6)) (W7 m ρ c (Proc.devRef .tc main_v31)) := by
  dsimp only [W8, hostOps3]
  after_results_simp <;> rfl

theorem W8_row (c : Dev nD) :
    W8 m ρ c (Proc.devRef .tc main_v62) = shapeCast S1x128 (W7 m ρ c (Proc.devRef .tc main_arg5)) shapeCasts_S128_S1x128 := by
  dsimp only [W8, hostOps3]
  after_results_simp <;> rfl

/-- Region 3 leaves the result: the second bias row added. -/
theorem W9_out (c : Dev nD) :
    W9 m ρ c (Proc.devRef .tc main_v63) = Cert.Spec.bias (W8 m ρ c (Proc.devRef .tc main_v61)) (W8 m ρ c (Proc.devRef .tc main_v62)) :=
  (W9_arr m ρ c 2).trans (Cert.KernelIdeal.Region3.final (V8 m ρ) c)

/-! ## The bias rows -/

/-- A vector given a leading unit axis reads as the vector broadcast along that axis. -/
theorem row_eq (b : FVec Ideal S128 .f32) : shapeCast S1x128 b shapeCasts_S128_S1x128 = Cert.Spec.asRow b := by
  funext i
  obtain ⟨u, s, rfl⟩ : ∃ (u : Fin 1) (s : Fin 128), i = ix2 u s := ⟨i 0, i 1, eq_ix2 i⟩
  rw [Cert.Spec.asRow_apply]
  exact shapeCast_a_1a_apply b _ u s

/-! ## The result -/

/-- The result buffer's final contents are the network of the argument arrays. -/
theorem result (c : Dev nD) :
    W9 m ρ c (Proc.devRef .tc main_v63)
      = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  obtain ⟨a0, a2, a3, a4, a5⟩ := W3_arg m ρ c
  obtain ⟨k5, k6, k31, k4, k5a⟩ := W5_keep m ρ c
  -- the edge ends, the edge weights and the arguments, carried to where each is read
  have d5 : W4 m ρ c (Proc.devRef .tc main_v5) = Cert.Spec.src (m ((c : Thread nD τ).loc main_arg1)) := (W4_of_ne m ρ c main_v5 (by decide)).trans (W3_src m ρ c)
  have d6 : W4 m ρ c (Proc.devRef .tc main_v6) = Cert.Spec.dst (m ((c : Thread nD τ).loc main_arg1)) := (W4_of_ne m ρ c main_v6 (by decide)).trans (W3_dst m ρ c)
  have d31 : W4 m ρ c (Proc.devRef .tc main_v31) = Cert.Spec.norm (m ((c : Thread nD τ).loc main_arg1)) := (W4_of_ne m ρ c main_v31 (by decide)).trans (W3_norm m ρ c)
  have d3 : W4 m ρ c (Proc.devRef .tc main_arg3) = (m ((c : Thread nD τ).loc main_arg3)) := (W4_of_ne m ρ c main_arg3 (by decide)).trans a3
  have d4 : W4 m ρ c (Proc.devRef .tc main_arg4) = (m ((c : Thread nD τ).loc main_arg4)) := (W4_of_ne m ρ c main_arg4 (by decide)).trans a4
  have d5a : W4 m ρ c (Proc.devRef .tc main_arg5) = (m ((c : Thread nD τ).loc main_arg5)) := (W4_of_ne m ρ c main_arg5 (by decide)).trans a5
  have e4 : W6 m ρ c (Proc.devRef .tc main_arg4) = (m ((c : Thread nD τ).loc main_arg4)) := (W6_of_ne m ρ c main_arg4 (by decide)).trans (k4.trans d4)
  have c5 : W7 m ρ c (Proc.devRef .tc main_v5) = Cert.Spec.src (m ((c : Thread nD τ).loc main_arg1)) :=
    (W7_of_ne m ρ c main_v5 (by decide)).trans ((W6_of_ne m ρ c main_v5 (by decide)).trans (k5.trans d5))
  have c6 : W7 m ρ c (Proc.devRef .tc main_v6) = Cert.Spec.dst (m ((c : Thread nD τ).loc main_arg1)) :=
    (W7_of_ne m ρ c main_v6 (by decide)).trans ((W6_of_ne m ρ c main_v6 (by decide)).trans (k6.trans d6))
  have c31 : W7 m ρ c (Proc.devRef .tc main_v31) = Cert.Spec.norm (m ((c : Thread nD τ).loc main_arg1)) :=
    (W7_of_ne m ρ c main_v31 (by decide)).trans ((W6_of_ne m ρ c main_v31 (by decide)).trans (k31.trans d31))
  have c5a : W7 m ρ c (Proc.devRef .tc main_arg5) = (m ((c : Thread nD τ).loc main_arg5)) :=
    (W7_of_ne m ρ c main_arg5 (by decide)).trans ((W6_of_ne m ρ c main_arg5 (by decide)).trans (k5a.trans d5a))
  rw [W9_out, W8_agg, W8_row, W7_prod, W6_hidden, W5_agg, W5_row, W4_prod, c5, c6, c31, c5a, e4, d5, d6, d31, d3, row_eq, row_eq]
  rfl

end Cert.KernelIdeal.Fold

end
-- ==== Proof.RefValue.lean ====
/-
  The reference's result, read as the network of Proof/Spec.lean.

  The reference's run ends with its result buffer at the composed term of its host operations applied to the
  argument arrays. That term is, operation for operation, the function `Spec.out`: edge ends with self loops appended,
  degrees, edge weights, and twice (product, gather, scale, sum per destination, bias), a relu between.
-/
import proofs.«114793_j89352499626364_1_alg».proof.Proof.RefRun
import proofs.«114793_j89352499626364_1_alg».proof.Proof.Spec

noncomputable section

namespace Cert.ReferenceIdeal.RefValue

open Cert.ReferenceIdeal Cert.ReferenceIdeal.Gen Cert.ReferenceIdeal.Value Idealize.ShloMosaic Idealize.ShloMosaic.TcCoe Idealize.SL.Sem

/-- The run's composed term is the network of the argument arrays. -/
theorem res_eq (m : (ℓ : Loc nD τ sig) → Buf (Elt Ideal) ℓ) (c : Dev nD) :
    res_main_v66 (F := Ideal) m c
      = Cert.Spec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold res_main_v66
  rfl

end Cert.ReferenceIdeal.RefValue

end
-- ==== Proof.lean ====
/-
  The certificate: a two-layer graph convolution, its two matrix products and its two bias stages computed by grid
  kernels on row blocks, against the same network written with whole-array host operations.

  On the extended reals both programs end with their result buffer at ONE function of the argument arrays,
  `Cert.Spec.out`: edge ends with self loops appended, degree^(-1/2) edge weights, and twice (product, gather along the
  edges, scale, sum per destination node, bias), a relu between the rounds. The reference's run is that term operation
  for operation (Proof/RefValue.lean). The kernel program's run folds nine segments (Proof/KernelRun.lean); each grid
  region leaves the whole-array product or bias stage of the arrays it found, because its ten row blocks tile the
  result and a block of the product is the product with a block of rows (Proof/Region0 … Region3.lean), and the host
  stretches between them are the reference's own operations (Proof/KernelValue.lean). No law of arithmetic beyond
  reading a sum of products entry by entry is used, so the inputs' finiteness is never needed for the value.
  The three frames are the generated ones and the reference's run with its result dropped; nothing was rewritten
  on the way to the idealized kernel, so there is nothing to preserve.
-/
import proofs.«114793_j89352499626364_1_alg».proof.Defs
import proofs.«114793_j89352499626364_1_alg».proof.Proof.Gen.Kernel
import proofs.«114793_j89352499626364_1_alg».proof.Proof.Gen.Kernel.Skeleton
import proofs.«114793_j89352499626364_1_alg».proof.Proof.Gen.Kernel.Launch
import proofs.«114793_j89352499626364_1_alg».proof.Proof.Gen.Kernel.Points
import proofs.«114793_j89352499626364_1_alg».proof.Proof.Gen.Kernel.Frame
import proofs.«114793_j89352499626364_1_alg».proof.Proof.Gen.KernelIdeal
import proofs.«114793_j89352499626364_1_alg».proof.Proof.Gen.KernelIdeal.Skeleton
import proofs.«114793_j89352499626364_1_alg».proof.Proof.Gen.KernelIdeal.Launch
import proofs.«114793_j89352499626364_1_alg».proof.Proof.Gen.KernelIdeal.Points
import proofs.«114793_j89352499626364_1_alg».proof.Proof.Gen.KernelIdeal.Frame
import proofs.«114793_j89352499626364_1_alg».proof.Proof.Gen.ReferenceIdeal
import proofs.«114793_j89352499626364_1_alg».proof.Proof.Gen.Pre_finite_inputs
import proofs.«114793_j89352499626364_1_alg».proof.Proof.KernelRun
import proofs.«114793_j89352499626364_1_alg».proof.Proof.KernelValue
import proofs.«114793_j89352499626364_1_alg».proof.Proof.RefRun
import proofs.«114793_j89352499626364_1_alg».proof.Proof.RefValue
import Idealize.ShloMosaic.Adequacy
import Idealize.ShloMosaic.Init

noncomputable section

namespace Cert.Proof

open Idealize.ShloMosaic Idealize.ShloMosaic.TcCoe Idealize.SL.Sem

/-- The kernel program runs and its argument arrays end unchanged. -/
theorem frame_kernel : Cert.frame_Kernel := fun m ρ _ => Cert.Kernel.Gen.frame m ρ

/-- The idealized kernel program runs and its argument arrays end unchanged. -/
theorem frame_kernelIdeal : Cert.frame_KernelIdeal := fun m ρ _ => Cert.KernelIdeal.Gen.frame m ρ

/-- The reference runs and its argument arrays end unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel program ends with its result buffer at the network of its argument arrays. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v63)
          = Cert.Spec.out (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono
    (fun _ h c => ⟨(h c).1.trans (Cert.KernelIdeal.Fold.result m ρ c), (h c).2⟩)
    (Cert.KernelIdeal.Launched.run (F := Ideal) m ρ)

/-- On the extended reals the two programs, run from memories agreeing on the arguments, end with equal results:
    both results are the network of the same argument arrays. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
